-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : IVec S2x524288 32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S16384x128 : Shape := ⟨2, ![16384, 128]⟩
abbrev S16384x16384 : Shape := ⟨2, ![16384, 16384]⟩
abbrev S2048x128 : Shape := ⟨2, ![2048, 128]⟩
abbrev S2048x2048 : Shape := ⟨2, ![2048, 2048]⟩

abbrev nBuf : Space → Nat
  | .hbm => 72
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S16384, .i32⟩
  | .hbm, ⟨9, _⟩ => ⟨S540672, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S16384x64, .bf16⟩
  | .hbm, ⟨68, _⟩ => ⟨S_, .i32⟩
  | .hbm, ⟨69, _⟩ => ⟨S_, .bf16⟩
  | .hbm, ⟨70, _⟩ => ⟨S16384x128, .bf16⟩
  | .hbm, ⟨71, _⟩ => ⟨S16384x16384, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x2048, .f32⟩
  | .local _ .vmem, ⟨5, _⟩ => ⟨S2048x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_call2_v0 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bitsLt_bf16_f32 : FTy.bits .bf16 < FTy.bits .f32
  pads_S16384x64_S16384x128_000_0640 : S16384x64.Pads (![0, 0] : Fin 2 → Nat) ![0, 64] ![0, 0] S16384x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_v49) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S16384, .i32⟩
  | .hbm, ⟨9, _⟩ => ⟨S540672, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S64x16384, .f32⟩
  | .hbm, ⟨68, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x16384_S16384x16384_1_0_0_1_n_n_wf : DotDims.WF S16384x64 S64x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.BitsLaunch.lean ====
/-
  The run of the program `Kernel` on the TensorCores, for every float instance.

  @main computes, by host operations, one array h of 16384 rows and 128 lanes and then launches ONE kernel region on an
  8 × 8 grid whose two input windows are both laid over that one array: at grid point (i, j) the first window is the block
  of rows 2048·i … 2048·i + 2047 and the second the block of rows 2048·j … 2048·j + 2047, and the body stores into the
  output block (i, j) of a 16384 × 16384 array the product of the first block with the transpose of the second.
  Because the two input windows share their array, the array is lent to the pipeline in two halves of its share, one per
  window: both windows only read it, so each half suffices, and the halves are the whole array again at the end.

  This module states what the body leaves in the output block as a function of the two input blocks (`outBlock`), the
  body's triple, the pipeline's proof data with the shares halved, and the run: every execution terminates, the output
  array ends at what the library computes from the per-point blocks, and every other array ends as the region found it.
-/
import proofs.«144810_j39591008534761_2_alg».proof.Proof.Gen.Kernel.Launch
import proofs.«144810_j39591008534761_2_alg».proof.Proof.Gen.Kernel.Skeleton
import proofs.«144810_j39591008534761_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents overwritten by the host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- @main is its stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-- No host operation writes an argument array: the region finds each as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes, Finset.mem_singleton]
    rcases hb with rfl | rfl | rfl | rfl
    all_goals (repeat' apply And.intro)
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rIn : Rect S2048x128 := Rect.unit (s := S2048x128) ![0, 0] S2048x128.size inb_S2048x128_S2048x128_0_0
abbrev rOut : Rect S2048x2048 := Rect.unit (s := S2048x2048) ![0, 0] S2048x2048.size inb_S2048x2048_S2048x2048_0_0

/-- The output window's staging buffer after the body, from the two input blocks: its one store, of the product. -/
def outBlock (x0 : Vec F S2048x128 .bf16) (x1 : Vec F S2048x128 .bf16) : Vec F S2048x2048 .f32 :=
  View.canon [⟨rOut, k0_pay1 (View.ld x0 rIn) (View.ld x1 rIn)⟩]

/-- The one store is of the whole buffer. -/
theorem coverOut (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs, the inputs' at contents `x0`, `x1` and the output's at anything, runs to the
    continuation with the inputs' unchanged and the output's at `outBlock x0 x1` (what it loads of the output
    buffer before storing it reads and never uses). -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x2048 .f32) (harg4 : arg4.IsWhole)
    (x0 : Vec F S2048x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__matmul_nt_kernel i arg2 harg2 arg3 harg3 arg4 harg4) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input's buffer at
    its block and the output's at `outBlock` of the two; the invariant the core's scoped buffers that are no staging
    buffer; nothing owed; the shared input array lent half to each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, lent in halves -/

/-- The two buffers behind the three windows' arrays, each whole, make a proof datum's arrays at entry when the datum
    lends the inputs' one array in halves: that array split along its share, the output's array whole. Stated for any
    contents `Vc` and any datum whose arrays are `Vc`'s, so that no particular contents are ever opened. -/
theorem split_halves {c : Dev nD} (dat : Dat τ (Elt F) Unit ℕ (UR sig nD τ) ℕ cfg0 c)
    (Vc : (b : Ref sig .tc) → Buf (Elt F) ((c.tc : Thread nD τ).loc b))
    (hA : ∀ w, dat.A w = Vc (Pipeline.arrRef spec0 w)) (h0 : dat.q 0 = fullShare.left) (h1 : dat.q 1 = fullShare.right) :
    (Pipeline.arrBufs (Ix := Unit) (Name := ℕ) (U := UR sig nD τ) (Lvl := ℕ) spec0 c Vc : sProp 𝕄) ⊢ dat.arrays (dat.arrAt · 0) := by
  have w0 : ((cfg0.win 0).arr).IsWhole := Memref.isWhole_whole _
  have w2 : ((cfg0.win 2).arr).IsWhole := Memref.isWhole_whole _
  have s0 : dat.share 0 = fullShare.left := by unfold Dat.share; exact (if_neg (by decide)).trans h0
  have s1 : dat.share 1 = fullShare.right := by unfold Dat.share; exact (if_neg (by decide)).trans h1
  have s2 : dat.share 2 = fullShare := by unfold Dat.share; exact if_pos (by decide)
  have a0 : dat.arrAt 0 0 = Vc (Pipeline.arrRef spec0 0) := hA 0
  have a1 : dat.arrAt 1 0 = Vc (Pipeline.arrRef spec0 1) := hA 1
  have a2 : dat.arrAt 2 0 = Vc (Pipeline.arrRef spec0 2) := hA 2
  unfold Pipeline.arrBufs Dat.arrays
  rw [show Finset.univ.image (Pipeline.arrRef spec0) = ({main_v49, main_v50} : Finset (Ref sig .tc)) from by decide,
    bigSep_W0, bigSep_insert (by decide), bigSep_singleton, w0.set_eq_univ, w2.set_eq_univ, s0, s1, s2]
  dsimp only
  rw [a0, a1, a2]
  refine (show iprop((((c.tc : Thread nD τ).loc main_v49) ↦{fullShare} Vc main_v49) ∗ (((c.tc : Thread nD τ).loc main_v50) ↦{fullShare} Vc main_v50)) ⊢ _ from ?_)
  iintro ⟨H49, H50⟩
  ihave H := (pointsTo_share (PosShare.mem_left_op_right fullShare)).1 $$ H49
  icases H with ⟨HL, HR⟩
  isplitl [HL]; · iexact HL
  isplitl [HR]; · iexact HR
  iexact H50

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  split_halves (dats m 0 c) (V m c) (A_eq m c) (by dsimp only [dats]) (by dsimp only [dats])

/-! ## The run -/

set_option maxHeartbeats 2000000 in
set_option backward.isDefEq.respectTransparency.types false in
/-- For any float values, from any memory with zero counters: every weakly fair execution of @main on the TensorCores
    terminates; the windows' arrays end at what the library computes from the proof data — the inputs' array as the
    region found it, the output array overwritten block by block by what the body left at each point — and every
    other unscoped buffer ends as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => show iprop(emp ∗ (dats m 0 c).Φ 0) ⊢ (dats m 0 c).Φ 0 from by
      iintro ⟨-, H⟩; iexact H)
    (hout := fun c => show (dats m 0 c).Φ (Fin.last cfg0.N) ⊢ iprop(emp ∗ (dats m 0 c).Φ (Fin.last cfg0.N)) from by
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The argument arrays end as launched: none is a window's array, none is written by a host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans (V_arg m c _ (.inl rfl)),
     ((h c).2 main_arg1 (Pipeline.mem_restRefs_of _ rfl (by decide))).trans (V_arg m c _ (.inr (.inl rfl))),
     ((h c).2 main_arg2 (Pipeline.mem_restRefs_of _ rfl (by decide))).trans (V_arg m c _ (.inr (.inr (.inl rfl)))),
     ((h c).2 main_arg3 (Pipeline.mem_restRefs_of _ rfl (by decide))).trans (V_arg m c _ (.inr (.inr (.inr rfl))))⟩) (run_main m ρ)

end Cert.Kernel.Hand

end
-- ==== Proof.IdealLaunch.lean ====
/-
  The run of the program `KernelIdeal` on the TensorCores, for every float instance.

  @main computes, by host operations, one array h of 16384 rows and 128 lanes and then launches ONE kernel region on an
  8 × 8 grid whose two input windows are both laid over that one array: at grid point (i, j) the first window is the block
  of rows 2048·i … 2048·i + 2047 and the second the block of rows 2048·j … 2048·j + 2047, and the body stores into the
  output block (i, j) of a 16384 × 16384 array the product of the first block with the transpose of the second.
  Because the two input windows share their array, the array is lent to the pipeline in two halves of its share, one per
  window: both windows only read it, so each half suffices, and the halves are the whole array again at the end.

  This module states what the body leaves in the output block as a function of the two input blocks (`outBlock`), the
  body's triple, the pipeline's proof data with the shares halved, and the run: every execution terminates, the output
  array ends at what the library computes from the per-point blocks, and every other array ends as the region found it.
-/
import proofs.«144810_j39591008534761_2_alg».proof.Proof.Gen.KernelIdeal.Launch
import proofs.«144810_j39591008534761_2_alg».proof.Proof.Gen.KernelIdeal.Skeleton
import proofs.«144810_j39591008534761_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents overwritten by the host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

/-- @main is its stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-- No host operation writes an argument array: the region finds each as launched. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes, Finset.mem_singleton]
    rcases hb with rfl | rfl | rfl | rfl
    all_goals (repeat' apply And.intro)
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rIn : Rect S2048x128 := Rect.unit (s := S2048x128) ![0, 0] S2048x128.size inb_S2048x128_S2048x128_0_0
abbrev rOut : Rect S2048x2048 := Rect.unit (s := S2048x2048) ![0, 0] S2048x2048.size inb_S2048x2048_S2048x2048_0_0

/-- The output window's staging buffer after the body, from the two input blocks: its one store, of the product. -/
def outBlock (x0 : Vec F S2048x128 .bf16) (x1 : Vec F S2048x128 .bf16) : Vec F S2048x2048 .f32 :=
  View.canon [⟨rOut, k0_pay1 (View.ld x0 rIn) (View.ld x1 rIn)⟩]

/-- The one store is of the whole buffer. -/
theorem coverOut (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs, the inputs' at contents `x0`, `x1` and the output's at anything, runs to the
    continuation with the inputs' unchanged and the output's at `outBlock x0 x1` (what it loads of the output
    buffer before storing it reads and never uses). -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x2048 .f32) (harg4 : arg4.IsWhole)
    (x0 : Vec F S2048x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__matmul_nt_kernel i arg2 harg2 arg3 harg3 arg4 harg4) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input's buffer at
    its block and the output's at `outBlock` of the two; the invariant the core's scoped buffers that are no staging
    buffer; nothing owed; the shared input array lent half to each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, lent in halves -/

/-- The two buffers behind the three windows' arrays, each whole, make a proof datum's arrays at entry when the datum
    lends the inputs' one array in halves: that array split along its share, the output's array whole. Stated for any
    contents `Vc` and any datum whose arrays are `Vc`'s, so that no particular contents are ever opened. -/
theorem split_halves {c : Dev nD} (dat : Dat τ (Elt F) Unit ℕ (UR sig nD τ) ℕ cfg0 c)
    (Vc : (b : Ref sig .tc) → Buf (Elt F) ((c.tc : Thread nD τ).loc b))
    (hA : ∀ w, dat.A w = Vc (Pipeline.arrRef spec0 w)) (h0 : dat.q 0 = fullShare.left) (h1 : dat.q 1 = fullShare.right) :
    (Pipeline.arrBufs (Ix := Unit) (Name := ℕ) (U := UR sig nD τ) (Lvl := ℕ) spec0 c Vc : sProp 𝕄) ⊢ dat.arrays (dat.arrAt · 0) := by
  have w0 : ((cfg0.win 0).arr).IsWhole := Memref.isWhole_whole _
  have w2 : ((cfg0.win 2).arr).IsWhole := Memref.isWhole_whole _
  have s0 : dat.share 0 = fullShare.left := by unfold Dat.share; exact (if_neg (by decide)).trans h0
  have s1 : dat.share 1 = fullShare.right := by unfold Dat.share; exact (if_neg (by decide)).trans h1
  have s2 : dat.share 2 = fullShare := by unfold Dat.share; exact if_pos (by decide)
  have a0 : dat.arrAt 0 0 = Vc (Pipeline.arrRef spec0 0) := hA 0
  have a1 : dat.arrAt 1 0 = Vc (Pipeline.arrRef spec0 1) := hA 1
  have a2 : dat.arrAt 2 0 = Vc (Pipeline.arrRef spec0 2) := hA 2
  unfold Pipeline.arrBufs Dat.arrays
  rw [show Finset.univ.image (Pipeline.arrRef spec0) = ({main_v49, main_v50} : Finset (Ref sig .tc)) from by decide,
    bigSep_W0, bigSep_insert (by decide), bigSep_singleton, w0.set_eq_univ, w2.set_eq_univ, s0, s1, s2]
  dsimp only
  rw [a0, a1, a2]
  refine (show iprop((((c.tc : Thread nD τ).loc main_v49) ↦{fullShare} Vc main_v49) ∗ (((c.tc : Thread nD τ).loc main_v50) ↦{fullShare} Vc main_v50)) ⊢ _ from ?_)
  iintro ⟨H49, H50⟩
  ihave H := (pointsTo_share (PosShare.mem_left_op_right fullShare)).1 $$ H49
  icases H with ⟨HL, HR⟩
  isplitl [HL]; · iexact HL
  isplitl [HR]; · iexact HR
  iexact H50

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  split_halves (dats m 0 c) (V m c) (A_eq m c) (by dsimp only [dats]) (by dsimp only [dats])

/-! ## The run -/

set_option maxHeartbeats 2000000 in
set_option backward.isDefEq.respectTransparency.types false in
/-- For any float values, from any memory with zero counters: every weakly fair execution of @main on the TensorCores
    terminates; the windows' arrays end at what the library computes from the proof data — the inputs' array as the
    region found it, the output array overwritten block by block by what the body left at each point — and every
    other unscoped buffer ends as the region found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => show iprop(emp ∗ (dats m 0 c).Φ 0) ⊢ (dats m 0 c).Φ 0 from by
      iintro ⟨-, H⟩; iexact H)
    (hout := fun c => show (dats m 0 c).Φ (Fin.last cfg0.N) ⊢ iprop(emp ∗ (dats m 0 c).Φ (Fin.last cfg0.N)) from by
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The argument arrays end as launched: none is a window's array, none is written by a host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of _ rfl (by decide))).trans (V_arg m c _ (.inl rfl)),
     ((h c).2 main_arg1 (Pipeline.mem_restRefs_of _ rfl (by decide))).trans (V_arg m c _ (.inr (.inl rfl))),
     ((h c).2 main_arg2 (Pipeline.mem_restRefs_of _ rfl (by decide))).trans (V_arg m c _ (.inr (.inr (.inl rfl)))),
     ((h c).2 main_arg3 (Pipeline.mem_restRefs_of _ rfl (by decide))).trans (V_arg m c _ (.inr (.inr (.inr rfl))))⟩) (run_main m ρ)

end Cert.KernelIdeal.Hand

end
-- ==== Proof.RefRun.lean ====
/-
  The reference program's run, for every float instance. @main is 65 host operations in a row and nothing else: the first
  63 compute the rectified graph-convolution features h (16384 rows of 64), the last two its transpose and the product
  h · hᵀ. Every weakly fair execution terminates, and each buffer then holds the fold of the operations' results over
  the launch contents, in order (the straight-line run of the library). The list is kept in those two pieces so that
  the value modules can separate the 63 operations the kernel shares from the two it replaces.
-/
import proofs.«144810_j39591008534761_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 63 operations that compute h (a called function's operations stand in its call's place). -/
abbrev opsHead : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_v4 (iotaInDim S16384 32 0),
    binary main_v1 main_v4 main_v5 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    binary main_v3 main_v4 main_v6 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    nullary main_cst (constant S_ .f32 0x3F800000#32),
    unary main_cst main_v7 (broadcastInDim S540672 ![] bcast_S_S540672 : (⟨S_, .f32⟩ : BufTy).Contents (Elt F) → (⟨S540672, .f32⟩ : BufTy).Contents (Elt F)),
    nullary main_cst_0 (constant S_ .f32 0x00000000#32),
    unary main_cst_0 main_v8 (broadcastInDim S16384 ![] bcast_S_S16384 : (⟨S_, .f32⟩ : BufTy).Contents (Elt F) → (⟨S16384, .f32⟩ : BufTy).Contents (Elt F)),
    unary main_v6 main_v9 (broadcastInDim S540672x1 ![0] bcast_S540672_S540672x1_0 : (⟨S540672, .i32⟩ : BufTy).Contents (Elt F) → (⟨S540672x1, .i32⟩ : BufTy).Contents (Elt F)),
    ternary main_v8 main_v9 main_v7 main_v10 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    nullary main_cst_1 (constant S_ .f32 0x00000000#32),
    unary main_cst_1 main_v11 (broadcastInDim S16384 ![] bcast_S_S16384 : (⟨S_, .f32⟩ : BufTy).Contents (Elt F) → (⟨S16384, .f32⟩ : BufTy).Contents (Elt F)),
    binary main_v10 main_v11 main_v12 (cmpf .ogt : (⟨S16384, .f32⟩ : BufTy).Contents (Elt F) → (⟨S16384, .f32⟩ : BufTy).Contents (Elt F) → (⟨S16384, .i1⟩ : BufTy).Contents (Elt F)),
    unary main_v10 main_v13 (Host.rsqrt : (⟨S16384, .f32⟩ : BufTy).Contents (Elt F) → (⟨S16384, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S16384, .f32⟩) main_call0_v1) (broadcastInDim S16384 ![] bcast_S_S16384),
    TRef.ternary (TRef.of (T := ⟨S16384, .i1⟩) main_v12) (TRef.of (T := ⟨S16384, .f32⟩) main_v13) (TRef.of (T := ⟨S16384, .f32⟩) main_call0_v1) (TRef.of (T := ⟨S16384, .f32⟩) main_v14) select,
    nullary main_c (constantI S_ 32 0#32),
    unary main_c main_v15 (broadcastInDim S540672 ![] bcast_S_S540672 : (⟨S_, .i32⟩ : BufTy).Contents (Elt F) → (⟨S540672, .i32⟩ : BufTy).Contents (Elt F)),
    binary main_v5 main_v15 main_v16 (cmpi .slt : (⟨S540672, .i32⟩ : BufTy).Contents (Elt F) → (⟨S540672, .i32⟩ : BufTy).Contents (Elt F) → (⟨S540672, .i1⟩ : BufTy).Contents (Elt F)),
    nullary main_c_3 (constantI S_ 32 16384#32),
    unary main_c_3 main_v17 (broadcastInDim S540672 ![] bcast_S_S540672 : (⟨S_, .i32⟩ : BufTy).Contents (Elt F) → (⟨S540672, .i32⟩ : BufTy).Contents (Elt F)),
    binary main_v5 main_v17 main_v18 (addi : (⟨S540672, .i32⟩ : BufTy).Contents (Elt F) → (⟨S540672, .i32⟩ : BufTy).Contents (Elt F) → (⟨S540672, .i32⟩ : BufTy).Contents (Elt F)),
    ternary main_v16 main_v18 main_v5 main_v19 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v19 main_v20 (broadcastInDim S540672x1 ![0] bcast_S540672_S540672x1_0 : (⟨S540672, .i32⟩ : BufTy).Contents (Elt F) → (⟨S540672x1, .i32⟩ : BufTy).Contents (Elt F)),
    binary main_v14 main_v20 main_v21 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    nullary main_c_4 (constantI S_ 32 0#32),
    unary main_c_4 main_v22 (broadcastInDim S540672 ![] bcast_S_S540672 : (⟨S_, .i32⟩ : BufTy).Contents (Elt F) → (⟨S540672, .i32⟩ : BufTy).Contents (Elt F)),
    binary main_v6 main_v22 main_v23 (cmpi .slt : (⟨S540672, .i32⟩ : BufTy).Contents (Elt F) → (⟨S540672, .i32⟩ : BufTy).Contents (Elt F) → (⟨S540672, .i1⟩ : BufTy).Contents (Elt F)),
    nullary main_c_5 (constantI S_ 32 16384#32),
    unary main_c_5 main_v24 (broadcastInDim S540672 ![] bcast_S_S540672 : (⟨S_, .i32⟩ : BufTy).Contents (Elt F) → (⟨S540672, .i32⟩ : BufTy).Contents (Elt F)),
    binary main_v6 main_v24 main_v25 (addi : (⟨S540672, .i32⟩ : BufTy).Contents (Elt F) → (⟨S540672, .i32⟩ : BufTy).Contents (Elt F) → (⟨S540672, .i32⟩ : BufTy).Contents (Elt F)),
    ternary main_v23 main_v25 main_v6 main_v26 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v26 main_v27 (broadcastInDim S540672x1 ![0] bcast_S540672_S540672x1_0 : (⟨S540672, .i32⟩ : BufTy).Contents (Elt F) → (⟨S540672x1, .i32⟩ : BufTy).Contents (Elt F)),
    binary main_v14 main_v27 main_v28 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    binary main_v21 main_v28 main_v29 (mulf : (⟨S540672, .f32⟩ : BufTy).Contents (Elt F) → (⟨S540672, .f32⟩ : BufTy).Contents (Elt F) → (⟨S540672, .f32⟩ : BufTy).Contents (Elt F)),
    binary main_arg0 main_arg2 main_v30 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    nullary main_c_6 (constantI S_ 32 0#32),
    unary main_c_6 main_v31 (broadcastInDim S540672 ![] bcast_S_S540672 : (⟨S_, .i32⟩ : BufTy).Contents (Elt F) → (⟨S540672, .i32⟩ : BufTy).Contents (Elt F)),
    binary main_v5 main_v31 main_v32 (cmpi .slt : (⟨S540672, .i32⟩ : BufTy).Contents (Elt F) → (⟨S540672, .i32⟩ : BufTy).Contents (Elt F) → (⟨S540672, .i1⟩ : BufTy).Contents (Elt F)),
    nullary main_c_7 (constantI S_ 32 16384#32),
    unary main_c_7 main_v33 (broadcastInDim S540672 ![] bcast_S_S540672 : (⟨S_, .i32⟩ : BufTy).Contents (Elt F) → (⟨S540672, .i32⟩ : BufTy).Contents (Elt F)),
    binary main_v5 main_v33 main_v34 (addi : (⟨S540672, .i32⟩ : BufTy).Contents (Elt F) → (⟨S540672, .i32⟩ : BufTy).Contents (Elt F) → (⟨S540672, .i32⟩ : BufTy).Contents (Elt F)),
    ternary main_v32 main_v34 main_v5 main_v35 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    unary main_v35 main_v36 (broadcastInDim S540672x1 ![0] bcast_S540672_S540672x1_0 : (⟨S540672, .i32⟩ : BufTy).Contents (Elt F) → (⟨S540672x1, .i32⟩ : BufTy).Contents (Elt F)),
    binary main_v30 main_v36 main_v37 ((fun x i => Host.gather gather_S16384x64_S540672x1_S540672x64_1_0_n_n_0_1_164 x i) : (⟨S16384x64, .f32⟩ : BufTy).Contents (Elt F) → (⟨S540672x1, .i32⟩ : BufTy).Contents (Elt F) → (⟨S540672x64, .f32⟩ : BufTy).Contents (Elt F)),
    unary main_v29 main_v38 (broadcastInDim S540672x1 ![0] bcast_S540672_S540672x1_0 : (⟨S540672, .f32⟩ : BufTy).Contents (Elt F) → (⟨S540672x1, .f32⟩ : BufTy).Contents (Elt F)),
    unary main_v38 main_v39 (broadcastInDim S540672x64 ![0, 1] bcast_S540672x1_S540672x64_0_1 : (⟨S540672x1, .f32⟩ : BufTy).Contents (Elt F) → (⟨S540672x64, .f32⟩ : BufTy).Contents (Elt F)),
    binary main_v37 main_v39 main_v40 (mulf : (⟨S540672x64, .f32⟩ : BufTy).Contents (Elt F) → (⟨S540672x64, .f32⟩ : BufTy).Contents (Elt F) → (⟨S540672x64, .f32⟩ : BufTy).Contents (Elt F)),
    nullary main_cst_8 (constant S_ .f32 0x00000000#32),
    unary main_cst_8 main_v41 (broadcastInDim S16384x64 ![] bcast_S_S16384x64 : (⟨S_, .f32⟩ : BufTy).Contents (Elt F) → (⟨S16384x64, .f32⟩ : BufTy).Contents (Elt F)),
    unary main_v6 main_v42 (broadcastInDim S540672x1 ![0] bcast_S540672_S540672x1_0 : (⟨S540672, .i32⟩ : BufTy).Contents (Elt F) → (⟨S540672x1, .i32⟩ : BufTy).Contents (Elt F)),
    ternary main_v41 main_v42 main_v40 main_v43 ((fun x i u => Host.scatterAdd scatter_S16384x64_S540672x1_S540672x64_1_0_0_1 x i u) : (⟨S16384x64, .f32⟩ : BufTy).Contents (Elt F) → (⟨S540672x1, .i32⟩ : BufTy).Contents (Elt F) → (⟨S540672x64, .f32⟩ : BufTy).Contents (Elt F) → (⟨S16384x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S16384x64 ![0, 1] bcast_S1x64_S16384x64_0_1 : (⟨S1x64, .f32⟩ : BufTy).Contents (Elt F) → (⟨S16384x64, .f32⟩ : BufTy).Contents (Elt F)),
    binary main_v43 main_v45 main_v46 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x64, .f32⟩) main_call1_v0) (broadcastInDim S16384x64 ![] bcast_S_S16384x64),
    TRef.binary (TRef.of (T := ⟨S16384x64, .f32⟩) main_v46) (TRef.of (T := ⟨S16384x64, .f32⟩) main_call1_v0) (TRef.of (T := ⟨S16384x64, .f32⟩) main_v47) maximumf ]

/-- The transpose of h and the product h · hᵀ. -/
abbrev opsTail : List (HloOp τ sig (Elt F)) :=
  [ unary main_v47 main_v48 ((transpose S64x16384 [1, 0] · transposes_S16384x64_S64x16384_1_0) : (⟨S16384x64, .f32⟩ : BufTy).Contents (Elt F) → (⟨S64x16384, .f32⟩ : BufTy).Contents (Elt F)),
    binary main_v47 main_v48 main_v49 ((fun l r => Host.dotGeneral dot_S16384x64_S64x16384_S16384x16384_1_0_0_1_n_n none l r) : (⟨S16384x64, .f32⟩ : BufTy).Contents (Elt F) → (⟨S64x16384, .f32⟩ : BufTy).Contents (Elt F) → (⟨S16384x16384, .f32⟩ : BufTy).Contents (Elt F)) ]

/-- @main's 65 operations, in order. -/
abbrev ops : List (HloOp τ sig (Elt F)) := opsHead ++ opsTail

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub ..⟩

/-- Every weakly fair execution of the reference terminates with every buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.Hand

end
-- ==== Proof.RefValue.lean ====
/-
  The reference program's result and arguments, read off its run.

  After the 63 operations that compute the features h (left as their fold), the reference transposes h and takes the plain
  product h · hᵀ: entry (r, s) of the result is the sum over the 64 feature lanes k of h(r, k) · h(s, k). No operation
  writes an argument array.
-/
import proofs.«144810_j39591008534761_2_alg».proof.Proof.RefRun
import Idealize.ShloMosaic.Lib.Pipeline.Frame
import Idealize.ShloMosaic.Lib.StackMember
import Idealize.ShloMosaic.Lib.ValueLayout
import Idealize.ShloMosaic.Lib.ValueIdx
import Idealize.ShloMosaic.PureOps.Ideal.Laws

set_option maxRecDepth 16384

open scoped BigOperators

noncomputable section

namespace Cert.ReferenceIdeal.HandValue

open Cert.ReferenceIdeal Cert.ReferenceIdeal.Gen Cert.ReferenceIdeal.Hand
open Idealize.ShloMosaic Idealize.ShloMosaic.TcCoe Idealize.ShloMosaic.ValueIdx Idealize.SL.Sem Idealize.ShloMosaic.StableHlo

/-- The features h as the reference's first 63 operations leave them, from a valuation of its buffers. -/
abbrev hR (V : Valuation τ sig (Elt Ideal)) : FVec Ideal S16384x64 .f32 :=
  after (opsHead (F := Ideal)) V (Proc.devRef .tc main_v47)

set_option maxHeartbeats 4000000 in
/-- The result buffer after all 65 operations: the plain product of h with its transpose. -/
theorem result_eq (V : Valuation τ sig (Elt Ideal)) :
    after (ops (F := Ideal)) V (Proc.devRef .tc main_v49)
      = Host.dotGeneral dot_S16384x64_S64x16384_S16384x16384_1_0_0_1_n_n none (hR V)
          (transpose S64x16384 [1, 0] (hR V) transposes_S16384x64_S64x16384_1_0) := by
  dsimp only [hR]
  show after (opsHead (F := Ideal) ++ opsTail) V _ = _
  rw [StableHlo.after_append]
  generalize after (opsHead (F := Ideal)) V = W
  simp only [opsTail]
  after_results

/-- The plain product of an array with its own transpose, read at (r, s): the lanes' sum of products of rows r and s. -/
theorem self_product_apply (A : FVec Ideal S16384x64 .f32) (r s : Fin 16384) :
    Host.dotGeneral dot_S16384x64_S64x16384_S16384x16384_1_0_0_1_n_n none A
        (transpose S64x16384 [1, 0] A transposes_S16384x64_S64x16384_1_0) (ix2 r s)
      = ∑ k : Fin 64, A (ix2 r k) * A (ix2 s k) := by
  have hd : dot_S16384x64_S64x16384_S16384x16384_1_0_0_1_n_n = DotDims.plain 16384 64 16384 := rfl
  rw [hd, StackMember.dotGeneral_plain_apply]
  exact Finset.sum_congr rfl fun k _ => by rw [transpose_ix2_apply]

/-- No operation writes an argument array. -/
theorem arg_kept (V : Valuation τ sig (Elt Ideal)) (b : Ref sig .tc) (hb : b = main_arg0 ∨ b = main_arg1 ∨ b = main_arg2 ∨ b = main_arg3) :
    after (ops (F := Ideal)) V (Proc.devRef .tc b) = V (Proc.devRef .tc b) :=
  StableHlo.after_of_forall_not_mem (b := Proc.devRef .tc b) _ _ (List.forall_iff_forall_mem.mp (by
    simp only [ops, opsHead, opsTail, List.cons_append, List.nil_append, List.Forall, StableHlo.nullary_writes, StableHlo.unary_writes, StableHlo.binary_writes,
      StableHlo.ternary_writes, StableHlo.reshape_writes, Finset.mem_singleton]
    rcases hb with rfl | rfl | rfl | rfl
    all_goals (repeat' apply And.intro)
    all_goals exact StableHlo.devRef_ne_of_ne (by decide)))

end Cert.ReferenceIdeal.HandValue

end
-- ==== Proof.KernelValue.lean ====
/-
  The idealized kernel's result as one function of the padded feature array, at the ideal instance.

  The body's one store is the product of the first input block with the transpose of the second, so the output block at
  (p, q) is the sum over the 128 lanes k of x0(p, k) · x1(q, k). At grid point t = (i, j) the first block is rows
  2048·i … of the array and the second rows 2048·j …, and the output block (i, j) covers rows 2048·i … and columns
  2048·j … of the result: so every entry (r, s) of the result ends at the sum over k of h(r, k) · h(s, k), where h is the
  padded array the region finds. The 64 output blocks tile the result array, so that is the whole array.
-/
import proofs.«144810_j39591008534761_2_alg».proof.Proof.IdealLaunch
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem offZero : (![0, 0] : Fin 2 → Nat) = fun _ => 0 := funext fun a => by fin_cases a <;> rfl

/-- The body's product of two [2048, 128] blocks, contracted over the lanes of both, read at (p, q). -/
theorem pay_apply (x0 x1 : Vec Ideal S2048x128 .bf16) (p q : Fin 2048) :
    k0_pay1 (F := Ideal) x0 x1 (ix2 p q) = ∑ k : Fin 128, x0 (ix2 p k) * x1 (ix2 q k) := by
  unfold k0_pay1
  rw [shapeCast_self, shapeCast_self]
  show FloatOps.matmul dot_S2048x128_S2048x128_S2048x2048_1_1_0_0_n_n none x0 x1 (constant (F := Ideal) S2048x2048 .f32 0x00000000#32) (ix2 p q) = _
  rw [Ideal.matmul_constant_zero_apply, ← Equiv.sum_comp (contrEquiv1 dot_S2048x128_S2048x128_S2048x2048_1_1_0_0_n_n 128 rfl rfl).symm]
  refine Finset.sum_congr rfl fun k _ => ?_
  have c2 := contrEquiv1_symm_val dot_S2048x128_S2048x128_S2048x2048_1_1_0_0_n_n 128 rfl rfl k
  have l2 : dot_S2048x128_S2048x128_S2048x2048_1_1_0_0_n_n.lhsIdx (ix2 p q) ((contrEquiv1 dot_S2048x128_S2048x128_S2048x2048_1_1_0_0_n_n 128 rfl rfl).symm k) = ix2 p k := by
    funext ax; apply Fin.ext
    match ax with
    | ⟨0, _⟩ => simp [DotDims.lhsIdx, dot_S2048x128_S2048x128_S2048x2048_1_1_0_0_n_n]; rfl
    | ⟨1, _⟩ => simp [DotDims.lhsIdx, dot_S2048x128_S2048x128_S2048x2048_1_1_0_0_n_n]; exact c2
  have r2 : dot_S2048x128_S2048x128_S2048x2048_1_1_0_0_n_n.rhsIdx (ix2 p q) ((contrEquiv1 dot_S2048x128_S2048x128_S2048x2048_1_1_0_0_n_n 128 rfl rfl).symm k) = ix2 q k := by
    funext ax; apply Fin.ext
    match ax with
    | ⟨0, _⟩ => simp [DotDims.rhsIdx, dot_S2048x128_S2048x128_S2048x2048_1_1_0_0_n_n]; rfl
    | ⟨1, _⟩ => simp [DotDims.rhsIdx, dot_S2048x128_S2048x128_S2048x2048_1_1_0_0_n_n]; exact c2
  rw [l2, r2]

/-- What the body leaves in the output block, at (p, q): the lanes' sum of products of row p of the first block and
    row q of the second. -/
theorem outBlock_apply (x0 x1 : Vec Ideal S2048x128 .bf16) (p q : Fin 2048) :
    outBlock (F := Ideal) x0 x1 (ix2 p q) = ∑ k : Fin 128, x0 (ix2 p k) * x1 (ix2 q k) := by
  unfold outBlock
  rw [View.canon_unit_zero offZero]
  simp only [View.ld_unit_zero (S := S2048x128) offZero]
  exact pay_apply x0 x1 p q

/-! ## The result array as one function of the padded features -/

/-- The Gram matrix of an array of 16384 rows and 128 lanes: entry (r, s) is the lanes' sum of products of rows r and s. -/
def gram (P : S16384x128.Idx → EReal) : S16384x16384.Idx → EReal :=
  fun j => ∑ k : Fin 128, P (ix2 (j 0) k) * P (ix2 (j 1) k)

/-- A block of products is a block of the Gram matrix, when its two operands are row blocks of one array. -/
theorem outBlock_eq_gram (P : S16384x128.Idx → EReal) (x0 x1 : Vec Ideal S2048x128 .bf16) (r0 s0 : ℕ) (hr : r0 + 2048 ≤ 16384) (hs : s0 + 2048 ≤ 16384)
    (h0 : ∀ (p : Fin 2048) (k : Fin 128), x0 (ix2 p k) = P (ix2 ⟨r0 + p.val, by have := p.isLt; omega⟩ k))
    (h1 : ∀ (q : Fin 2048) (k : Fin 128), x1 (ix2 q k) = P (ix2 ⟨s0 + q.val, by have := q.isLt; omega⟩ k)) (p q : Fin 2048) :
    outBlock (F := Ideal) x0 x1 (ix2 p q) = gram P (ix2 ⟨r0 + p.val, by have := p.isLt; omega⟩ ⟨s0 + q.val, by have := q.isLt; omega⟩) := by
  rw [outBlock_apply]
  unfold gram
  exact Finset.sum_congr rfl fun k _ => by rw [h0, h1]

/-- The printed index maps over the grid: the first input window's row block is the output's row block, the second's the
    output's column block, both at lane block 0, and the output's blocks range over 8 × 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every output block is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

variable (m : (ℓ : Loc nD τ sig) → Buf (Elt Ideal) ℓ)

/-- The first input window's block at a point, read at (p, k): the array's row (block index × 2048 + p), lane k. -/
theorem iblk0_apply (c : Dev nD) (t : Fin cfg0.N) (p : Fin 2048) (k : Fin 128) :
    iblk m c 0 t (ix2 p k) = V m c main_v49 (ix2 ⟨win0_2.index t (0 : Fin 2) * 2048 + p.val, by have := (idx_facts t).2.2.2.2.1; have := p.isLt; omega⟩ k) := by
  obtain ⟨e0, e1, e2, e3, e4, e5⟩ := idx_facts t
  show V m c main_v49 (((cfg0.win 0).blk t).view.emb (ix2 p k)) = _
  congr 1
  funext a; apply Fin.ext
  match a with
  | ⟨0, _⟩ => show win0_0.index t (0 : Fin 2) * 2048 + 1 * p.val = win0_2.index t (0 : Fin 2) * 2048 + p.val; omega
  | ⟨1, _⟩ => show win0_0.index t (1 : Fin 2) * 128 + 1 * k.val = k.val; omega

/-- The second input window's block at a point, read at (q, k). -/
theorem iblk1_apply (c : Dev nD) (t : Fin cfg0.N) (q : Fin 2048) (k : Fin 128) :
    iblk m c 1 t (ix2 q k) = V m c main_v49 (ix2 ⟨win0_2.index t (1 : Fin 2) * 2048 + q.val, by have := (idx_facts t).2.2.2.2.2; have := q.isLt; omega⟩ k) := by
  obtain ⟨e0, e1, e2, e3, e4, e5⟩ := idx_facts t
  show V m c main_v49 (((cfg0.win 1).blk t).view.emb (ix2 q k)) = _
  congr 1
  funext a; apply Fin.ext
  match a with
  | ⟨0, _⟩ => show win0_1.index t (0 : Fin 2) * 2048 + 1 * q.val = win0_2.index t (1 : Fin 2) * 2048 + q.val; omega
  | ⟨1, _⟩ => show win0_1.index t (1 : Fin 2) * 128 + 1 * k.val = k.val; omega

/-- What point `t` writes back is block `t` of the Gram matrix of the padded features the region finds. -/
theorem flushed_eq (c : Dev nD) (t : Fin cfg0.N) :
    (dats m 0 c).flushed 2 t = ((cfg0.win 2).blk t).view.read (Elt Ideal) (gram (V m c main_v49)) := by
  show (cfg0.win 2).cut (grid0.coords t) ((dats m 0 c).after 2 t) = _
  rw [after2]
  obtain ⟨e0, e1, e2, e3, e4, e5⟩ := idx_facts t
  funext j
  obtain ⟨p, q, rfl⟩ : ∃ (p q : Fin 2048), j = ix2 p q := ⟨j 0, j 1, eq_ix2 j⟩
  show outBlock (F := Ideal) (iblk m c 0 t) (iblk m c 1 t) (ix2 p q) = gram (V m c main_v49) (((cfg0.win 2).blk t).view.emb (ix2 p q))
  rw [outBlock_eq_gram (V m c main_v49) (iblk m c 0 t) (iblk m c 1 t) (win0_2.index t (0 : Fin 2) * 2048) (win0_2.index t (1 : Fin 2) * 2048) (by omega) (by omega)
    (iblk0_apply m c t) (iblk1_apply m c t) p q]
  congr 1
  funext a; apply Fin.ext
  match a with
  | ⟨0, _⟩ => show win0_2.index t (0 : Fin 2) * 2048 + p.val = win0_2.index t (0 : Fin 2) * 2048 + 1 * p.val; omega
  | ⟨1, _⟩ => show win0_2.index t (1 : Fin 2) * 2048 + q.val = win0_2.index t (1 : Fin 2) * 2048 + 1 * q.val; omega

/-- An index of the result array is in point `t`'s block iff each coordinate is in the block's range on its axis. -/
theorem mem_blk (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v50).slice (win0_2.rect t)).set ↔ _
  rw [View.set_slice_whole, Rect.mem_set_unit]
  exact Iff.rfl

/-- The 64 output blocks tile the result array. -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run: the Gram matrix of the padded features the region finds. -/
theorem final (c : Dev nD) : (dats m 0 c).arrAt 2 cfg0.N = gram (V m c main_v49) :=
  (dats m 0 c).arrAt_eq_of_cover 2 (gram (V m c main_v49)) (fun t _ => flushed_eq m c t) cover

end Cert.KernelIdeal.HandValue

end
-- ==== Proof.SharedPrelude.lean ====
/-
  The two programs compute the rectified features h by the SAME 63 host operations of their four arguments.

  Both @mains begin with the same graph convolution — the degree of each node by a scatter-add of ones, its inverse square
  root where positive, the edge weights gathered from it, the features z·W gathered along the edges, scaled, scatter-added
  back, the bias added, and the maximum with 0 — printed operation for operation alike, each over its own program's buffers.
  What the last of them leaves depends on the launch contents only through the four argument arrays; so the fold over a
  program's memory is the fold over a valuation that holds just those four arrays, and the two programs' folds over such
  valuations are one term. The convolution itself is never opened.
-/
import proofs.«144810_j39591008534761_2_alg».proof.Proof.Gen.KernelIdeal.Launch
import proofs.«144810_j39591008534761_2_alg».proof.Proof.RefRun
import Idealize.ShloMosaic.Lib.StableHlo.Run
import Idealize.ShloMosaic.PureOps.Ideal

noncomputable section

namespace Cert.SharedPrelude

open Idealize.ShloMosaic Idealize.ShloMosaic.TcCoe Idealize.SL.Sem Idealize.ShloMosaic.StableHlo

/-- The four argument arrays' types (the same in both programs). -/
abbrev TZ : Type := (⟨⟨2, ![16384, 64]⟩, .f32⟩ : BufTy).Contents (Elt Ideal)
abbrev TE : Type := (⟨⟨2, ![2, 524288]⟩, .i32⟩ : BufTy).Contents (Elt Ideal)
abbrev TW : Type := (⟨⟨2, ![64, 64]⟩, .f32⟩ : BufTy).Contents (Elt Ideal)
abbrev TB : Type := (⟨⟨1, ![64]⟩, .f32⟩ : BufTy).Contents (Elt Ideal)

/-- A valuation of the kernel program's buffers that holds the four arrays at the argument buffers (anything elsewhere). -/
def valK (z : TZ) (e : TE) (W : TW) (b : TB) : Valuation Cert.KernelIdeal.τ Cert.KernelIdeal.sig (Elt Ideal) :=
  Function.update (Function.update (Function.update (Function.update (fun _ _ => Classical.arbitrary _)
    (Proc.devRef .tc Cert.KernelIdeal.main_arg0) z) (Proc.devRef .tc Cert.KernelIdeal.main_arg1) e) (Proc.devRef .tc Cert.KernelIdeal.main_arg2) W) (Proc.devRef .tc Cert.KernelIdeal.main_arg3) b

/-- The same of the reference program's buffers. -/
def valR (z : TZ) (e : TE) (W : TW) (b : TB) : Valuation Cert.ReferenceIdeal.τ Cert.ReferenceIdeal.sig (Elt Ideal) :=
  Function.update (Function.update (Function.update (Function.update (fun _ _ => Classical.arbitrary _)
    (Proc.devRef .tc Cert.ReferenceIdeal.main_arg0) z) (Proc.devRef .tc Cert.ReferenceIdeal.main_arg1) e) (Proc.devRef .tc Cert.ReferenceIdeal.main_arg2) W) (Proc.devRef .tc Cert.ReferenceIdeal.main_arg3) b

/-- The kernel program's 63 operations that compute h. -/
abbrev opsK : List (HloOp Cert.KernelIdeal.τ Cert.KernelIdeal.sig (Elt Ideal)) :=
  Cert.KernelIdeal.Gen.hostOps0 (F := Ideal) ++ Cert.KernelIdeal.Gen.hostOps0_1 ++ Cert.KernelIdeal.Gen.hostOps0_2 ++ Cert.KernelIdeal.Gen.hostOps0_3

set_option maxRecDepth 16384 in
set_option maxHeartbeats 40000000 in
/-- The kernel program's h depends on a valuation only through the four argument buffers. -/
theorem hK_of_args (V : Valuation Cert.KernelIdeal.τ Cert.KernelIdeal.sig (Elt Ideal)) :
    after opsK V (Proc.devRef .tc Cert.KernelIdeal.main_v47)
      = after opsK (valK (V (Proc.devRef .tc Cert.KernelIdeal.main_arg0)) (V (Proc.devRef .tc Cert.KernelIdeal.main_arg1)) (V (Proc.devRef .tc Cert.KernelIdeal.main_arg2)) (V (Proc.devRef .tc Cert.KernelIdeal.main_arg3)))
          (Proc.devRef .tc Cert.KernelIdeal.main_v47) := by
  simp only [opsK, Cert.KernelIdeal.Gen.hostOps0, Cert.KernelIdeal.Gen.hostOps0_1, Cert.KernelIdeal.Gen.hostOps0_2, Cert.KernelIdeal.Gen.hostOps0_3, List.cons_append, List.nil_append, List.append_nil]
  after_results_simp
  rfl

set_option maxRecDepth 16384 in
set_option maxHeartbeats 40000000 in
/-- The reference program's h depends on a valuation only through the four argument buffers. -/
theorem hR_of_args (V : Valuation Cert.ReferenceIdeal.τ Cert.ReferenceIdeal.sig (Elt Ideal)) :
    after (Cert.ReferenceIdeal.Hand.opsHead (F := Ideal)) V (Proc.devRef .tc Cert.ReferenceIdeal.main_v47)
      = after (Cert.ReferenceIdeal.Hand.opsHead (F := Ideal)) (valR (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)))
          (Proc.devRef .tc Cert.ReferenceIdeal.main_v47) := by
  simp only [Cert.ReferenceIdeal.Hand.opsHead]
  after_results_simp
  rfl

set_option maxRecDepth 16384 in
set_option maxHeartbeats 40000000 in
/-- Over valuations holding the same four arrays, the two programs' h is one term. -/
theorem hK_eq_hR (z : TZ) (e : TE) (W : TW) (b : TB) :
    after opsK (valK z e W b) (Proc.devRef .tc Cert.KernelIdeal.main_v47)
      = after (Cert.ReferenceIdeal.Hand.opsHead (F := Ideal)) (valR z e W b) (Proc.devRef .tc Cert.ReferenceIdeal.main_v47) := by
  simp only [opsK, Cert.KernelIdeal.Gen.hostOps0, Cert.KernelIdeal.Gen.hostOps0_1, Cert.KernelIdeal.Gen.hostOps0_2, Cert.KernelIdeal.Gen.hostOps0_3, List.cons_append, List.nil_append, List.append_nil, Cert.ReferenceIdeal.Hand.opsHead]
  after_results_simp
  rfl

end Cert.SharedPrelude

end
-- ==== Proof.KernelTail.lean ====
/-
  The array the kernel region finds: the features h, cast to bf16 (nothing at the ideal instance) and padded from 64 to
  128 lanes with the integer 0 converted to a float. It is read off @main's host operations after the 63 that compute h,
  which are left as their fold.
-/
import proofs.«144810_j39591008534761_2_alg».proof.Proof.IdealLaunch
import proofs.«144810_j39591008534761_2_alg».proof.Proof.SharedPrelude

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

/-- The features h as the kernel program's first 63 host operations leave them, from core `c`'s launch contents. -/
abbrev hK (m : (ℓ : Loc nD τ sig) → Buf (Elt Ideal) ℓ) (c : Dev nD) : FVec Ideal S16384x64 .f32 :=
  after Cert.SharedPrelude.opsK (fun b => m (c, b)) (Proc.devRef .tc main_v47)

/-- h padded to 128 lanes, as the last host operations before the region compute it. -/
abbrev padded (A : FVec Ideal S16384x64 .f32) : FVec Ideal S16384x128 .bf16 :=
  pad S16384x128 ![0, 0] ![0, 64] ![0, 0] (truncf (F := Ideal) .bf16 A bitsLt_bf16_f32)
    (sitofp (F := Ideal) .bf16 (constantI S_ 32 0#32)) pads_S16384x64_S16384x128_000_0640 h_S_

set_option maxHeartbeats 4000000 in
/-- The region finds, in both input windows' array, h padded. -/
theorem V_v49 (m : (ℓ : Loc nD τ sig) → Buf (Elt Ideal) ℓ) (c : Dev nD) : V m c main_v49 = padded (hK m c) := by
  dsimp only [V, hK]
  rw [show List.flatten [hostOps0 (F := Ideal), hostOps0_1, hostOps0_2, hostOps0_3, hostOps0_4, hostOps0_5]
      = Cert.SharedPrelude.opsK ++ (hostOps0_4 ++ hostOps0_5) from by
    simp only [List.flatten_cons, List.flatten_nil, List.append_nil, List.append_assoc, Cert.SharedPrelude.opsK],
    StableHlo.after_append]
  generalize StableHlo.after Cert.SharedPrelude.opsK (fun b => m (c, b)) = W
  simp only [hostOps0_4, hostOps0_5, List.cons_append, List.nil_append]
  after_results
  rfl

end Cert.KernelIdeal.HandValue

end
-- ==== Proof.LibPadLanes.lean ====
/-
  Two general facts about an array padded along its last axis, for products contracted over the padded axis.

  * `pad_last_apply`: `stablehlo.pad` with no low padding, no interior padding and high padding on the last axis only, of an
    [a, n] array into an [a, N] array, read at coordinates (i, k): the operand at (i, k) while k < n, the padding value from
    lane n on.
  * `sum_eq_sum_of_zero_tail`: a sum over N lanes whose terms vanish from lane n ≤ N on is the sum over the first n lanes
    (in any commutative additive monoid; in particular over the extended reals, where no finiteness is needed).
-/
import Idealize.ShloMosaic.PureOps.Ideal
import Idealize.ShloMosaic.Lib.ValueIdx
import Mathlib.Algebra.BigOperators.Fin

open scoped BigOperators

noncomputable section

namespace Cert.LibPadLanes

open Idealize.ShloMosaic Idealize.ShloMosaic.ValueIdx

/-- A sum over `N` lanes whose terms vanish from lane `n ≤ N` on is the sum over the first `n` lanes. -/
theorem sum_eq_sum_of_zero_tail {M : Type} [AddCommMonoid M] (n N : ℕ) (hnN : n ≤ N) (f : ℕ → M) (h : ∀ k, n ≤ k → f k = 0) :
    ∑ k : Fin N, f k.val = ∑ k : Fin n, f k.val := by
  rw [Fin.sum_univ_eq_sum_range f N, Fin.sum_univ_eq_sum_range f n]
  exact (Finset.sum_subset (Finset.range_mono hnN) (fun k _ hk => h k (by simpa using hk))).symm

/-- A pad that only appends lanes to the last axis of an [a, n] array, read at coordinates: the operand inside the
    first `n` lanes, the padding value beyond them. -/
theorem pad_last_apply {α : Type} {a n N hi : ℕ} (x : (⟨2, ![a, n]⟩ : Shape).Idx → α) {u : Shape} (v : u.Idx → α)
    (h : (⟨2, ![a, n]⟩ : Shape).Pads ![0, 0] ![0, hi] ![0, 0] ⟨2, ![a, N]⟩) (hu : 0 < u.numel) (i : Fin a) (k : Fin N) :
    pad ⟨2, ![a, N]⟩ ![0, 0] ![0, hi] ![0, 0] x v h hu (ix2 i k)
      = if hk : k.val < n then x (ix2 i ⟨k.val, hk⟩) else v (Shape.Idx.first hu) := by
  unfold pad
  by_cases hk : k.val < n
  · rw [dif_pos hk, dif_pos]
    · congr 1; funext ax; apply Fin.ext
      match ax with
      | ⟨0, _⟩ => simp
      | ⟨1, _⟩ => simp
    · intro ax
      match ax with
      | ⟨0, _⟩ => exact ⟨Nat.zero_le _, by simp [Nat.mod_one], by simpa using i.isLt⟩
      | ⟨1, _⟩ => exact ⟨Nat.zero_le _, by simp [Nat.mod_one], by simpa using hk⟩
  · rw [dif_neg hk, dif_neg]
    intro hall
    exact hk (by simpa using (hall ⟨1, Nat.one_lt_two⟩).2.2)

end Cert.LibPadLanes

end
-- ==== Proof.Bridge.lean ====
/-
  The two idealized programs compute the same matrix.

  The kernel's result is the Gram matrix, over 128 lanes, of the features h padded with 64 lanes of the float of the integer 0,
  which is 0: each of those lanes contributes 0 · 0 = 0 to every entry, so the entry (r, s) is the sum over the 64 feature
  lanes k of h(r, k) · h(s, k) — a sum in the extended reals, where adding 0 and multiplying 0 by 0 need no finiteness.
  The reference's result is the plain product h · hᵀ, the same sum. And the two programs' h are one function of the four
  arguments, computed by the same 63 host operations.
-/
import proofs.«144810_j39591008534761_2_alg».proof.Proof.KernelValue
import proofs.«144810_j39591008534761_2_alg».proof.Proof.KernelTail
import proofs.«144810_j39591008534761_2_alg».proof.Proof.RefValue
import proofs.«144810_j39591008534761_2_alg».proof.Proof.SharedPrelude
import proofs.«144810_j39591008534761_2_alg».proof.Proof.LibPadLanes

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

/-- The padding value, the integer 0 as a float, is 0. -/
theorem padValue : sitofp (F := Ideal) .bf16 (constantI S_ 32 0#32) (Shape.Idx.first h_S_) = (0 : EReal) := by
  show (((0#32 : BitVec 32).toInt : ℝ) : EReal) = 0
  simp

/-- The padded features at (i, k): h inside the 64 feature lanes, 0 in the 64 appended ones. -/
theorem padded_apply (A : FVec Ideal S16384x64 .f32) (i : Fin 16384) (k : Fin 128) :
    padded A (ix2 i k) = if hk : k.val < 64 then A (ix2 i ⟨k.val, hk⟩) else 0 := by
  have hp := Cert.LibPadLanes.pad_last_apply (truncf (F := Ideal) .bf16 A bitsLt_bf16_f32) (sitofp (F := Ideal) .bf16 (constantI S_ 32 0#32))
    pads_S16384x64_S16384x128_000_0640 h_S_ i k
  rw [padValue] at hp
  exact hp

/-- The Gram matrix of the padded features at (r, s) is the sum over the 64 feature lanes. -/
theorem gram_padded (A : FVec Ideal S16384x64 .f32) (r s : Fin 16384) :
    gram (padded A) (ix2 r s) = ∑ k : Fin 64, A (ix2 r k) * A (ix2 s k) := by
  show ∑ k : Fin 128, padded A (ix2 r k) * padded A (ix2 s k) = _
  let f : ℕ → EReal := fun k => if hk : k < 64 then A (ix2 r ⟨k, hk⟩) * A (ix2 s ⟨k, hk⟩) else 0
  have hterm : ∀ k : Fin 128, padded A (ix2 r k) * padded A (ix2 s k) = f k.val := by
    intro k
    rw [padded_apply, padded_apply]
    by_cases hk : k.val < 64
    · simp only [f, dif_pos hk]
    · simp only [f, dif_neg hk, zero_mul]
  have hf : ∀ k, 64 ≤ k → f k = 0 := fun k hk => dif_neg (by omega)
  calc ∑ k : Fin 128, padded A (ix2 r k) * padded A (ix2 s k)
      = ∑ k : Fin 128, f k.val := Finset.sum_congr rfl (fun k _ => hterm k)
    _ = ∑ k : Fin 64, f k.val := Cert.LibPadLanes.sum_eq_sum_of_zero_tail 64 128 (by norm_num) f hf
    _ = ∑ k : Fin 64, A (ix2 r k) * A (ix2 s k) := Finset.sum_congr rfl fun k _ => by simp only [f, dif_pos k.isLt]

end Cert.KernelIdeal.HandValue

namespace Cert.Bridge

open Idealize.ShloMosaic Idealize.ShloMosaic.TcCoe Idealize.ShloMosaic.ValueIdx Idealize.SL.Sem Idealize.ShloMosaic.StableHlo

/-- From memories that agree on the four arguments, the two programs' features h are equal. -/
theorem features_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.KernelIdeal.HandValue.hK m c = Cert.ReferenceIdeal.HandValue.hR (launchContents m' c) := by
  dsimp only [Cert.KernelIdeal.HandValue.hK, Cert.ReferenceIdeal.HandValue.hR]
  have eK := Cert.SharedPrelude.hK_of_args (fun b => m (c, b))
  have eR := Cert.SharedPrelude.hR_of_args (launchContents m' c)
  have e := Cert.SharedPrelude.hK_eq_hR (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  have a0 : launchContents m' c (Proc.devRef .tc Cert.ReferenceIdeal.main_arg0) = m ((c.tc : Thread Cert.KernelIdeal.nD Cert.KernelIdeal.τ).loc Cert.KernelIdeal.main_arg0) := h0
  have a1 : launchContents m' c (Proc.devRef .tc Cert.ReferenceIdeal.main_arg1) = m ((c.tc : Thread Cert.KernelIdeal.nD Cert.KernelIdeal.τ).loc Cert.KernelIdeal.main_arg1) := h1
  have a2 : launchContents m' c (Proc.devRef .tc Cert.ReferenceIdeal.main_arg2) = m ((c.tc : Thread Cert.KernelIdeal.nD Cert.KernelIdeal.τ).loc Cert.KernelIdeal.main_arg2) := h2
  have a3 : launchContents m' c (Proc.devRef .tc Cert.ReferenceIdeal.main_arg3) = m ((c.tc : Thread Cert.KernelIdeal.nD Cert.KernelIdeal.τ).loc Cert.KernelIdeal.main_arg3) := h3
  rw [a0, a1, a2, a3] at eR
  exact eK.trans (e.trans eR.symm)

/-- From memories that agree on the four arguments, the kernel's result array is the reference's. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after (Cert.ReferenceIdeal.Hand.ops (F := Ideal)) (launchContents m' c) (Proc.devRef .tc Cert.ReferenceIdeal.main_v49)
      = Cert.KernelIdeal.HandValue.gram (Cert.KernelIdeal.Hand.V m c Cert.KernelIdeal.main_v49) := by
  rw [Cert.KernelIdeal.HandValue.V_v49, Cert.ReferenceIdeal.HandValue.result_eq, features_agree m m' c h0 h1 h2 h3]
  funext j
  obtain ⟨r, s, rfl⟩ : ∃ (r s : Fin 16384), j = ix2 r s := ⟨j 0, j 1, eq_ix2 j⟩
  rw [Cert.ReferenceIdeal.HandValue.self_product_apply]
  exact (Cert.KernelIdeal.HandValue.gram_padded _ r s).symm

end Cert.Bridge

end
-- ==== Proof.lean ====
/- The proof of `Cert.Claim`: a graph-convolution layer followed by the reconstruction h · hᵀ, the kernel against its jnp
   reference at the ideal instance.

   Both programs compute the rectified features h (16384 rows of 64) by the same 63 host operations. The reference then takes
   the plain product h · hᵀ. The kernel casts h to bf16, pads it with 64 zero lanes, and launches one region on an 8 × 8 grid
   whose two input windows are both laid over the padded array; the body stores the product of the first block with the
   transpose of the second into block (i, j) of the result.

   * The frames of the two kernel programs (Proof/BitsLaunch.lean, Proof/IdealLaunch.lean, one text at the two instances):
     the shared input array is lent to the pipeline in two halves of its share, one per window.
   * The reference's frame and run (Proof/RefRun.lean): 65 host operations in a row.
   * No rewrite was applied by the ideal pass: `preserves` is trivial.
   * `algebraic`: the kernel's result is the Gram matrix of the padded features over 128 lanes (Proof/KernelValue.lean,
     Proof/KernelTail.lean); the appended lanes hold 0 and add 0 · 0 = 0 to every entry (Proof/LibPadLanes.lean), leaving
     the sum over the 64 feature lanes, which is the reference's entry (Proof/RefValue.lean); and the two programs' h are
     one function of the arguments (Proof/SharedPrelude.lean). Assembled in Proof/Bridge.lean. No finiteness is used. -/
import proofs.«144810_j39591008534761_2_alg».proof.Defs
import proofs.«144810_j39591008534761_2_alg».proof.Proof.Gen.Kernel
import proofs.«144810_j39591008534761_2_alg».proof.Proof.Gen.KernelIdeal
import proofs.«144810_j39591008534761_2_alg».proof.Proof.Gen.ReferenceIdeal
import proofs.«144810_j39591008534761_2_alg».proof.Proof.Gen.Pre_finite_inputs
import proofs.«144810_j39591008534761_2_alg».proof.Proof.BitsLaunch
import proofs.«144810_j39591008534761_2_alg».proof.Proof.IdealLaunch
import proofs.«144810_j39591008534761_2_alg».proof.Proof.RefRun
import proofs.«144810_j39591008534761_2_alg».proof.Proof.RefValue
import proofs.«144810_j39591008534761_2_alg».proof.Proof.KernelValue
import proofs.«144810_j39591008534761_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's arguments end as launched: its run, read at the argument buffers, which no operation writes. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.HandValue.arg_kept _ _ (.inl rfl)),
     (h c Cert.ReferenceIdeal.main_arg1).trans (Cert.ReferenceIdeal.HandValue.arg_kept _ _ (.inr (.inl rfl))),
     (h c Cert.ReferenceIdeal.main_arg2).trans (Cert.ReferenceIdeal.HandValue.arg_kept _ _ (.inr (.inr (.inl rfl)))),
     (h c Cert.ReferenceIdeal.main_arg3).trans (Cert.ReferenceIdeal.HandValue.arg_kept _ _ (.inr (.inr (.inr rfl))))⟩)
    (Cert.ReferenceIdeal.Hand.run (F := Ideal) m ρ)

theorem preserves : Cert.preserves_Kernel_KernelIdeal := trivial

/-- Both idealized programs end, from memories agreeing on the arguments, with the Gram matrix of the features over the
    64 feature lanes in their result arrays, and with their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandValue.gram (Cert.KernelIdeal.Hand.V m c Cert.KernelIdeal.main_v49), ?_, ?_⟩
  · exact (θ_run Cert.KernelIdeal.defs _ _).mono (fun _ h c =>
      ⟨((h c).1 2).trans (Cert.KernelIdeal.HandValue.final m c),
       ((h c).2 Cert.KernelIdeal.main_arg0 (Pipeline.mem_restRefs_of _ rfl (by decide))).trans (Cert.KernelIdeal.Hand.V_arg m c _ (.inl rfl)),
       ((h c).2 Cert.KernelIdeal.main_arg1 (Pipeline.mem_restRefs_of _ rfl (by decide))).trans (Cert.KernelIdeal.Hand.V_arg m c _ (.inr (.inl rfl))),
       ((h c).2 Cert.KernelIdeal.main_arg2 (Pipeline.mem_restRefs_of _ rfl (by decide))).trans (Cert.KernelIdeal.Hand.V_arg m c _ (.inr (.inr (.inl rfl)))),
       ((h c).2 Cert.KernelIdeal.main_arg3 (Pipeline.mem_restRefs_of _ rfl (by decide))).trans (Cert.KernelIdeal.Hand.V_arg m c _ (.inr (.inr (.inr rfl))))⟩)
      (Cert.KernelIdeal.Hand.run_main (F := Ideal) m ρ)
  · exact (θ_run Cert.ReferenceIdeal.defs _ _).mono (fun _ h c =>
      ⟨(h c Cert.ReferenceIdeal.main_v49).trans (Cert.Bridge.results_agree m m' c (hagree c).1 (hagree c).2.1 (hagree c).2.2.1 (hagree c).2.2.2),
       (h c Cert.ReferenceIdeal.main_arg0).trans (Cert.ReferenceIdeal.HandValue.arg_kept _ _ (.inl rfl)),
       (h c Cert.ReferenceIdeal.main_arg1).trans (Cert.ReferenceIdeal.HandValue.arg_kept _ _ (.inr (.inl rfl))),
       (h c Cert.ReferenceIdeal.main_arg2).trans (Cert.ReferenceIdeal.HandValue.arg_kept _ _ (.inr (.inr (.inl rfl)))),
       (h c Cert.ReferenceIdeal.main_arg3).trans (Cert.ReferenceIdeal.HandValue.arg_kept _ _ (.inr (.inr (.inr rfl))))⟩)
      (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
